-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x2048 .f32) (main_arg1 : FVec F S32768x2048 .f32) (main_arg2 : FVec F S2048x2048 .f32) (main_arg3 : FVec F S2048 .f32) (main_arg4 : FVec F S2048 .f32) (main_arg5 : FVec F S2048 .f32) (main_arg6 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x2048 : Shape := ⟨2, ![512, 2048]⟩
abbrev S128x2048 : Shape := ⟨2, ![128, 2048]⟩

abbrev nBuf : Space → Nat
  | .hbm => 18
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c128_i32 : BitVec 32 := 128#32
  let v4 : BitVec 32 := Scalar.muli c0_i32 c128_i32
  v4
def k0_off1 (c0_i32 : BitVec 32) : Fin 2 → Nat :=
  let c128_i32 : BitVec 32 := 128#32
  let v4 : BitVec 32 := Scalar.muli c0_i32 c128_i32
  let v5 : BitVec 32 := v4
  let v6 : Index := Scalar.indexCast v5
  let c0_3 : Index := 0#32
  ![v6.toNat, 0]
def k0_mult2 : BitVec 32 :=
  let c1_i32 : BitVec 32 := 1#32
  let c128_i32_5 : BitVec 32 := 128#32
  let v17 : BitVec 32 := Scalar.muli c1_i32 c128_i32_5
  v17
def k0_mult3 : BitVec 32 :=
  let c2_i32 : BitVec 32 := 2#32
  let c128_i32_8 : BitVec 32 := 128#32
  let v30 : BitVec 32 := Scalar.muli c2_i32 c128_i32_8
  v30
def k0_mult4 : BitVec 32 :=
  let c3_i32 : BitVec 32 := 3#32
  let c128_i32_11 : BitVec 32 := 128#32
  let v43 : BitVec 32 := Scalar.muli c3_i32 c128_i32_11
  v43
def k0_mult5 : BitVec 32 :=
  let c0_i32_20 : BitVec 32 := 0#32
  let c128_i32_21 : BitVec 32 := 128#32
  let v63 : BitVec 32 := Scalar.muli c0_i32_20 c128_i32_21
  v63
def k0_mult6 : BitVec 32 :=
  let c1_i32_28 : BitVec 32 := 1#32
  let c128_i32_29 : BitVec 32 := 128#32
  let v90 : BitVec 32 := Scalar.muli c1_i32_28 c128_i32_29
  v90
def k0_mult7 : BitVec 32 :=
  let c2_i32_36 : BitVec 32 := 2#32
  let c128_i32_37 : BitVec 32 := 128#32
  let v117 : BitVec 32 := Scalar.muli c2_i32_36 c128_i32_37
  v117
def k0_mult8 : BitVec 32 :=
  let c3_i32_44 : BitVec 32 := 3#32
  let c128_i32_45 : BitVec 32 := 128#32
  let v144 : BitVec 32 := Scalar.muli c3_i32_44 c128_i32_45
  v144
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S2048 : S_.BroadcastsInDim S2048 (![] : Fin 0 → Fin S2048.rank)
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S128x2048 : 0 < S128x2048.numel
  broadcasts_S1x2048_S128x2048 : S1x2048.Broadcasts S128x2048
  shapeCasts_S128x2048_S128x2048 : S128x2048.ShapeCasts S128x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512x2048_S512x2048 : S512x2048.ShapeCasts S512x2048
  dot_S512x2048_S2048x2048_S512x2048_1_0_0_1_n_n_wf : DotDims.WF S512x2048 S2048x2048 S512x2048 [1] [0] [0] [1] [] []
  hrank0 : 0 < grid0.rank
  k0_mult1_dvd : 128 ∣ k0_mult1.toNat
  k0_off1_inb : ∀ (r : Fin 4), ∀ a, (k0_off1 (BitVec.ofNat 32 r.val)) a + S128x2048.size a ≤ S512x2048.size a
  k0_off1_packedbf16 : ∀ (r : Fin 4), (Rect.unit (s := S512x2048) (k0_off1 (BitVec.ofNat 32 r.val)) S128x2048.size (k0_off1_inb r)).PackedRows (EltTy.packing .bf16)
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S32768x2048.size a
  hwx0_5 : ∀ i : grid0.Coords, EltTy.bits .f32 = 32 ∨ (Rect.block (s := S32768x2048) S512x2048.size (cc0_transform_5 i) (hinb0_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S32768x2048, .f32⟩
  | .hbm, ⟨14, _⟩ => ⟨S32768x2048, .f32⟩
  | .hbm, ⟨15, _⟩ => ⟨S2048, .f32⟩
  | .hbm, ⟨16, _⟩ => ⟨S2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S32768x2048, .f32⟩
  | .hbm, ⟨27, _⟩ => ⟨S32768x2048, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  dot_S32768x2048_S2048x2048_S32768x2048_1_0_0_1_n_n_wf : DotDims.WF S32768x2048 S2048x2048 S32768x2048 [1] [0] [0] [1] [] []

variable [Facts₀]

def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf

class Facts : Prop extends Facts₀ where

variable [Facts]
-- ==== Proof.HighwaySpec.lean ====
/-
  A gated blend of two batch-normalized inputs, one entry at a time, over the extended reals.

  Both inputs are N×D matrices normalized column by column with ONE scale s and ONE offset o (length D):
  h1 = x1 · s + o and h2 = x2 · s + o, where s = γ · rsqrt(σ² + ε) and o = β − μ · s. A gate is read off the first
  normalized input through a D×D matrix W: g = max(tanh(h1 W), 0). The result is tanh(h2 · (1 − g) + h1 · g).

  Entry (r, n) of the result depends on row r of each input only: the two normalized entries at (r, n), and the
  contraction of the whole normalized row r of the first input with column n of W. So the result is stated row by
  row (`rowOut`), and the whole matrix (`result`) and any block of consecutive rows of it are the same row function
  read at the row's own data. The literals 1, 0 and ε stay the f32 words the programs print.
-/
import Idealize.ShloMosaic.PureOps.Ideal
import Idealize.ShloMosaic.Lib.ValueIdx

noncomputable section

namespace Cert.Highway

open Idealize.ShloMosaic Idealize.ShloMosaic.ValueIdx

/-- The f32 words of 1, 0 and the variance's ε = 1e-3, as extended reals. -/
abbrev one : EReal := Ideal.ofBits .f32 0x3F800000#32
abbrev zero : EReal := Ideal.ofBits .f32 0x00000000#32
abbrev eps : EReal := Ideal.ofBits .f32 0x3A83126F#32

/-- The blend of the normalized entries `a` (first input) and `b` (second input) under the gate whose
    pre-activation is `g`: tanh(b · (1 − max(tanh g, 0)) + a · max(tanh g, 0)). -/
def blend (a b g : EReal) : EReal :=
  Ideal.tanh (b * (one - max (Ideal.tanh g) zero) + a * max (Ideal.tanh g) zero)

/-- Entry `n` of one result row, from that row `a` of the first input and `b` of the second, the columns' scale `s` and
    offset `o`, and the matrix `W`: the gate's pre-activation is the normalized row of the first input contracted
    with column `n` of `W`. -/
def rowOut (a b s o : Fin 2048 → EReal) (W : Fin 2048 → Fin 2048 → EReal) (n : Fin 2048) : EReal :=
  blend (a n * s n + o n) (b n * s n + o n) (∑ k : Fin 2048, (a k * s k + o k) * W k n)

/-- A result entry depends on its rows, the scale, the offset and the matrix only through their entries. -/
theorem rowOut_congr {a a' b b' s s' o o' : Fin 2048 → EReal} {W W' : Fin 2048 → Fin 2048 → EReal}
    (ha : ∀ k, a k = a' k) (hb : ∀ k, b k = b' k) (hs : ∀ k, s k = s' k) (ho : ∀ k, o k = o' k)
    (hW : ∀ k n, W k n = W' k n) (n : Fin 2048) : rowOut a b s o W n = rowOut a' b' s' o' W' n := by
  obtain rfl : a = a' := funext ha
  obtain rfl : b = b' := funext hb
  obtain rfl : s = s' := funext hs
  obtain rfl : o = o' := funext ho
  obtain rfl : W = W' := funext fun k => funext (hW k)
  rfl

/-- The columns' scale γ · rsqrt(σ² + ε). -/
def scale (gamma var : (⟨1, ![2048]⟩ : Shape).Idx → EReal) (k : Fin 2048) : EReal :=
  gamma (ix1 k) * Ideal.rsqrt (var (ix1 k) + eps)

/-- The columns' offset β − μ · scale. -/
def offset (gamma beta mean var : (⟨1, ![2048]⟩ : Shape).Idx → EReal) (k : Fin 2048) : EReal :=
  beta (ix1 k) - mean (ix1 k) * scale gamma var k

/-- The whole result from the seven argument arrays: row `j 0` of each input through `rowOut`, read at column `j 1`. -/
def result (x1 x2 : (⟨2, ![32768, 2048]⟩ : Shape).Idx → EReal) (W : (⟨2, ![2048, 2048]⟩ : Shape).Idx → EReal)
    (gamma beta mean var : (⟨1, ![2048]⟩ : Shape).Idx → EReal) : (⟨2, ![32768, 2048]⟩ : Shape).Idx → EReal :=
  fun j => rowOut (fun k => x1 (ix2 (j 0) k)) (fun k => x2 (ix2 (j 0) k)) (scale gamma var) (offset gamma beta mean var)
    (fun k n => W (ix2 k n)) (j 1)

/-- A block of 512 consecutive rows of the result, from the blocks of the inputs and the scale and offset as 1×D rows. -/
def blockOut (x1 x2 : (⟨2, ![512, 2048]⟩ : Shape).Idx → EReal) (W : (⟨2, ![2048, 2048]⟩ : Shape).Idx → EReal)
    (s o : (⟨2, ![1, 2048]⟩ : Shape).Idx → EReal) : (⟨2, ![512, 2048]⟩ : Shape).Idx → EReal :=
  fun j => rowOut (fun k => x1 (ix2 (j 0) k)) (fun k => x2 (ix2 (j 0) k)) (fun k => s (ix2 (0 : Fin 1) k))
    (fun k => o (ix2 (0 : Fin 1) k)) (fun k n => W (ix2 k n)) (j 1)

end Cert.Highway

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.KernelChunks.lean ====
/-
  One grid point's body, payload by payload, at the extended reals.

  The body works on a block of 512 rows in four chunks of 128 rows. Each chunk of the first input is normalized
  (x · s + o, the scale and offset one 1×2048 row each broadcast down the chunk) and stored, the four stored chunks
  are read back as one 512-row matrix and multiplied with the 2048×2048 weight into a zero accumulator, and each
  chunk of the result blends the two normalized inputs under the gate max(tanh(product), 0). Here each payload is read
  at one entry (p, q) of its chunk: the normalization and the blend are entrywise, the product at (p, n) is the sum
  over k of left(p, k) · right(k, n), and a load of 128 rows from row `off` reads entry (off + p, q).
-/
import proofs.«163675_j77163382440891_2_alg».proof.Proof.Gen.KernelIdeal.Skeleton
import proofs.«163675_j77163382440891_2_alg».proof.Proof.HighwaySpec
import proofs.«163675_j77163382440891_2_alg».proof.Proof.LibPlainMatmul
import Idealize.ShloMosaic.Lib.Pipeline.Value
import Idealize.ShloMosaic.Lib.Pipeline.FrameBody
import Idealize.ShloMosaic.Lib.ValueLayout

noncomputable section

namespace Cert.Highway.Chunks

open Cert.KernelIdeal Cert.KernelIdeal.Gen Idealize.ShloMosaic Idealize.ShloMosaic.ValueIdx Cert.Highway

theorem hz : (![0, 0] : Fin 2 → Nat) = fun _ => 0 := funext fun a => by fin_cases a <;> rfl

/-- A chunk scaled and shifted column by column, at entry (p, q). -/
theorem affine_apply (v : FVec Ideal S128x2048 .f32) (s o : FVec Ideal S1x2048 .f32)
    (h : S1x2048.Broadcasts S128x2048) (p : Fin 128) (q : Fin 2048) :
    addf (mulf v (broadcastTo S128x2048 s h)) (broadcastTo S128x2048 o h) (ix2 p q)
      = v (ix2 p q) * s (ix2 (0 : Fin 1) q) + o (ix2 (0 : Fin 1) q) := by
  show v (ix2 p q) * broadcastTo S128x2048 s h (ix2 p q) + broadcastTo S128x2048 o h (ix2 p q) = _
  rw [broadcastTo_1b_ab_apply, broadcastTo_1b_ab_apply]

/-! ## The normalized chunks of the first input, as stored for the product -/

theorem pay3_apply (s o : FVec Ideal S1x2048 .f32) (v : FVec Ideal S128x2048 .f32) (p : Fin 128) (q : Fin 2048) :
    k0_pay3 (F := Ideal) s o v (ix2 p q) = v (ix2 p q) * s (ix2 (0 : Fin 1) q) + o (ix2 (0 : Fin 1) q) := by
  unfold k0_pay3 k0_pay1 k0_pay2
  simp only [shapeCast_self]
  exact affine_apply v s o _ p q

theorem pay4_apply (s o : FVec Ideal S1x2048 .f32) (v : FVec Ideal S128x2048 .f32) (p : Fin 128) (q : Fin 2048) :
    k0_pay4 (F := Ideal) s o v (ix2 p q) = v (ix2 p q) * s (ix2 (0 : Fin 1) q) + o (ix2 (0 : Fin 1) q) := by
  unfold k0_pay4 k0_pay1 k0_pay2
  simp only [shapeCast_self]
  exact affine_apply v s o _ p q

theorem pay65_apply (s o : FVec Ideal S1x2048 .f32) (v : FVec Ideal S128x2048 .f32) (p : Fin 128) (q : Fin 2048) :
    k0_pay6 (F := Ideal) (k0_pay5 s o v) (ix2 p q) = v (ix2 p q) * s (ix2 (0 : Fin 1) q) + o (ix2 (0 : Fin 1) q) := by
  unfold k0_pay6 k0_pay5 k0_pay1 k0_pay2
  simp only [shapeCast_self]
  exact affine_apply v s o _ p q

theorem pay7_apply (s o : FVec Ideal S1x2048 .f32) (v : FVec Ideal S128x2048 .f32) (p : Fin 128) (q : Fin 2048) :
    k0_pay7 (F := Ideal) (k0_pay1 s) (k0_pay2 o) v (ix2 p q) = v (ix2 p q) * s (ix2 (0 : Fin 1) q) + o (ix2 (0 : Fin 1) q) := by
  unfold k0_pay7 k0_pay1 k0_pay2
  simp only [shapeCast_self]
  exact affine_apply v s o _ p q

/-! ## The product -/

/-- The 512×2048 by 2048×2048 product into the zero accumulator, at entry (p, n). -/
theorem pay8_apply (l : FVec Ideal S512x2048 .bf16) (r : FVec Ideal S2048x2048 .bf16) (p : Fin 512) (n : Fin 2048) :
    k0_pay8 (F := Ideal) l r (ix2 p n) = ∑ k : Fin 2048, l (ix2 p k) * r (ix2 k n) := by
  unfold k0_pay8
  simp only [shapeCast_self]
  exact Cert.LibPlainMatmul.matmul_eq_plain_zero_apply _ rfl none l r p n

/-! ## The blended chunks -/

theorem pay12_apply (s o : FVec Ideal S1x2048 .f32) (u w g : FVec Ideal S128x2048 .f32) (p : Fin 128) (q : Fin 2048) :
    k0_pay12 (F := Ideal) (k0_pay9 (k0_pay1 s) (k0_pay2 o) u) (k0_pay10 (k0_pay1 s) (k0_pay2 o) w) (k0_pay11 g)
        (FloatOps.ofBits .f32 0x00000000#32) (ix2 p q)
      = blend (u (ix2 p q) * s (ix2 (0 : Fin 1) q) + o (ix2 (0 : Fin 1) q))
          (w (ix2 p q) * s (ix2 (0 : Fin 1) q) + o (ix2 (0 : Fin 1) q)) (g (ix2 p q)) := by
  have hu := affine_apply u s o broadcasts_S1x2048_S128x2048 p q
  have hw := affine_apply w s o broadcasts_S1x2048_S128x2048 p q
  unfold blend
  rw [← hu, ← hw]
  unfold k0_pay12 k0_pay9 k0_pay10 k0_pay11 k0_pay1 k0_pay2
  simp only [shapeCast_self]
  rfl

theorem pay13_apply (s o : FVec Ideal S1x2048 .f32) (u w g : FVec Ideal S128x2048 .f32) (p : Fin 128) (q : Fin 2048) :
    k0_pay13 (F := Ideal) (k0_pay1 s) (k0_pay2 o) u w g (ix2 p q)
      = blend (u (ix2 p q) * s (ix2 (0 : Fin 1) q) + o (ix2 (0 : Fin 1) q))
          (w (ix2 p q) * s (ix2 (0 : Fin 1) q) + o (ix2 (0 : Fin 1) q)) (g (ix2 p q)) := by
  have hu := affine_apply u s o broadcasts_S1x2048_S128x2048 p q
  have hw := affine_apply w s o broadcasts_S1x2048_S128x2048 p q
  unfold blend
  rw [← hu, ← hw]
  unfold k0_pay13 k0_pay1 k0_pay2
  simp only [shapeCast_self]
  rfl

theorem pay15_apply (s o : FVec Ideal S1x2048 .f32) (u w g : FVec Ideal S128x2048 .f32) (p : Fin 128) (q : Fin 2048) :
    k0_pay15 (F := Ideal) (k0_pay1 s) (k0_pay2 o) u w (k0_pay14 (k0_pay1 s)) g (ix2 p q)
      = blend (u (ix2 p q) * s (ix2 (0 : Fin 1) q) + o (ix2 (0 : Fin 1) q))
          (w (ix2 p q) * s (ix2 (0 : Fin 1) q) + o (ix2 (0 : Fin 1) q)) (g (ix2 p q)) := by
  have hu := affine_apply u s o broadcasts_S1x2048_S128x2048 p q
  have hw := affine_apply w s o broadcasts_S1x2048_S128x2048 p q
  unfold blend
  rw [← hu, ← hw]
  unfold k0_pay15 k0_pay14 k0_pay1 k0_pay2
  simp only [shapeCast_self]
  rfl

theorem pay16_apply (s o : FVec Ideal S1x2048 .f32) (u w g : FVec Ideal S128x2048 .f32) (p : Fin 128) (q : Fin 2048) :
    k0_pay16 (F := Ideal) (k0_pay1 s) (k0_pay2 o) u w g (ix2 p q)
      = blend (u (ix2 p q) * s (ix2 (0 : Fin 1) q) + o (ix2 (0 : Fin 1) q))
          (w (ix2 p q) * s (ix2 (0 : Fin 1) q) + o (ix2 (0 : Fin 1) q)) (g (ix2 p q)) := by
  have hu := affine_apply u s o broadcasts_S1x2048_S128x2048 p q
  have hw := affine_apply w s o broadcasts_S1x2048_S128x2048 p q
  unfold blend
  rw [← hu, ← hw]
  unfold k0_pay16 k0_pay1 k0_pay2
  simp only [shapeCast_self]
  rfl

/-! ## A load of 128 rows -/

/-- The 128 rows from row `off` of a 512-row matrix: entry (p, q) of the load is entry (off + p, q) of the matrix. -/
theorem slab_idx (off : ℕ) (hoff : off + 128 ≤ 512)
    (inb : ∀ a, (![off, 0] : Fin 2 → ℕ) a + S128x2048.size a ≤ S512x2048.size a) (p : Fin 128) (q : Fin 2048) :
    (Rect.unit (s := S512x2048) ![off, 0] S128x2048.size inb).idx (ix2 p q)
      = ix2 (⟨off + p.val, by have := p.isLt; omega⟩ : Fin 512) q := by
  funext a; apply Fin.ext
  match a with
  | ⟨0, _⟩ => show off + 1 * p.val = off + p.val; omega
  | ⟨1, _⟩ => show 0 + 1 * q.val = q.val; omega

end Cert.Highway.Chunks

end
-- ==== Proof.KernelBlock.lean ====
/-
  What one grid point's body leaves in its output block, as one function of the point's input blocks.

  The body's four output stores tile the 512×2048 block by chunks of 128 rows. The chunk from row `off` holds, at
  (p, q), the blend of the two normalized inputs at row off + p under the gate read from the product's row off + p —
  and the product's left operand is the four stored normalized chunks of the first input read back whole, which is
  x · s + o at every entry. So every store is the restriction of ONE function of the block index, the row function of
  the specification read at the block's own rows (`blockOut`), and the stores cover the block.
-/
import proofs.«163675_j77163382440891_2_alg».proof.Proof.Gen.KernelIdeal.Frame
import proofs.«163675_j77163382440891_2_alg».proof.Proof.KernelChunks
import Idealize.ShloMosaic.Lib.Tactic

set_option maxRecDepth 16384

noncomputable section

namespace Cert.Highway.Block

open Cert.KernelIdeal Cert.KernelIdeal.Gen Idealize.ShloMosaic Idealize.ShloMosaic.TcCoe Idealize.ShloMosaic.ValueIdx
open Cert.Highway Cert.Highway.Chunks

/-- A load of 128 whole rows keeps the column: entry (p, q) of the load sits in column q of the matrix. -/
theorem slab_col (off : Fin 2 → ℕ) (inb : ∀ a, off a + S128x2048.size a ≤ S512x2048.size a) (h1 : off 1 = 0)
    (p : Fin 128) (q : Fin 2048) :
    (Rect.unit (s := S512x2048) off S128x2048.size inb).idx (ix2 p q) 1 = q :=
  Fin.ext (by show off 1 + 1 * q.val = q.val; omega)

/-- The normalization at an index whose column is `q`, with the column read off the index. -/
theorem affine_at (x : FVec Ideal S512x2048 .f32) (s o : FVec Ideal S1x2048 .f32) (I : S512x2048.Idx) (q : Fin 2048)
    (hq : I 1 = q) :
    x I * s (ix2 (0 : Fin 1) q) + o (ix2 (0 : Fin 1) q)
      = (fun j : S512x2048.Idx => x j * s (ix2 (0 : Fin 1) (j 1)) + o (ix2 (0 : Fin 1) (j 1))) I := by
  subst hq; rfl

/-- The blend at block index `I` in column `q`, its gate read from the product of the normalized first input with the
    weight at `I`, is the specification's block at `I`. -/
theorem blend_at (x0 x1 : FVec Ideal S512x2048 .f32) (x2 : FVec Ideal S2048x2048 .bf16) (s o : FVec Ideal S1x2048 .f32)
    (I : S512x2048.Idx) (q : Fin 2048) (hq : I 1 = q) :
    blend (x0 I * s (ix2 (0 : Fin 1) q) + o (ix2 (0 : Fin 1) q)) (x1 I * s (ix2 (0 : Fin 1) q) + o (ix2 (0 : Fin 1) q))
        (k0_pay8 (F := Ideal) (fun j => x0 j * s (ix2 (0 : Fin 1) (j 1)) + o (ix2 (0 : Fin 1) (j 1))) x2 I)
      = blockOut x0 x1 x2 s o I := by
  obtain ⟨r, q', rfl⟩ : ∃ (r : Fin 512) (q' : Fin 2048), I = ix2 r q' := ⟨I 0, I 1, eq_ix2 I⟩
  obtain rfl : q' = q := hq
  rw [pay8_apply]
  rfl

set_option maxHeartbeats 2000000 in
/-- What the body leaves in the output's staging buffer: the specification's block of the input blocks. -/
theorem out_block (c : Dev nD) (i : grid0.Coords) (a1 : Memref sig .tc .vmem S512x2048 .f32) (h1 : a1.IsWhole)
    (a2 : Memref sig .tc .vmem S512x2048 .f32) (h2 : a2.IsWhole) (a3 : Memref sig .tc .vmem S2048x2048 .bf16) (h3 : a3.IsWhole)
    (a4 : Memref sig .tc .vmem S1x2048 .f32) (h4 : a4.IsWhole) (a5 : Memref sig .tc .vmem S1x2048 .f32) (h5 : a5.IsWhole)
    (a6 : Memref sig .tc .vmem S512x2048 .f32) (h6 : a6.IsWhole) (a7 : Memref sig .tc .vmem S512x2048 .bf16) (h7 : a7.IsWhole)
    (a8 : Memref sig .tc .vmem S512x2048 .f32) (h8 : a8.IsWhole)
    (x0 x1 : Vec Ideal S512x2048 .f32) (x2 : Vec Ideal S2048x2048 .bf16) (x3 x4 : Vec Ideal S1x2048 .f32) :
    out0_A_5 (F := Ideal) c i a1 h1 a2 h2 a3 h3 a4 h4 a5 h5 a6 h6 a7 h7 a8 h8 x0 x1 x2 x3 x4 = blockOut x0 x1 x2 x3 x4 := by
  unfold out0_A_5
  rw [View.read_writes_eq_canon _ _ _ (cover0_A_5 c i a1 h1 a2 h2 a3 h3 a4 h4 a5 h5 a6 h6 a7 h7 a8 h8 x0 x1 x2 x3 x4)]
  funext y
  refine View.canon_apply_of_pieces (Val := Elt Ideal) (S := S512x2048) (e := .f32) (blockOut x0 x1 x2 x3 x4) _ ?_ y
    (cover0_A_5 c i a1 h1 a2 h2 a3 h3 a4 h4 a5 h5 a6 h6 a7 h7 a8 h8 x0 x1 x2 x3 x4 y)
  unfold kernelRun0_A
  dsimp only
  sl_unfold_words
  simp only [View.readAt_eq_ld, h1.read_unread, h2.read_unread, h3.read_unread, h4.read_unread, h5.read_unread,
    View.ld_unit_zero (S := S1x2048) hz, View.ld_unit_zero (S := S2048x2048) hz]
  -- the four stored chunks of the normalized first input, read back as one 512-row matrix: x · s + o entrywise
  generalize hN : View.readCov (Val := Elt Ideal) a7.view _ _ = N
  have hN' : N = fun j => x0 j * x3 (ix2 (0 : Fin 1) (j 1)) + x4 (ix2 (0 : Fin 1) (j 1)) := by
    rw [← hN, View.readCov_eq_canon']
    show View.ld (View.canon _) (Rect.unit (s := S512x2048) ![0, 0] S512x2048.size _) = _
    rw [View.ld_unit_zero hz]
    funext j
    refine View.canon_apply_of_pieces (Val := Elt Ideal) (S := S512x2048) (e := .bf16)
      (fun j => x0 j * x3 (ix2 (0 : Fin 1) (j 1)) + x4 (ix2 (0 : Fin 1) (j 1))) _ ?_ j
      (View.cover_of_tiledL (s := S512x2048) _ S128x2048.size (by sl_kernel_rfl) j)
    intro pc hpc
    simp only [List.mem_cons, List.not_mem_nil, or_false] at hpc
    rcases hpc with rfl | rfl | rfl | rfl
    all_goals (intro z; obtain ⟨p, q, rfl⟩ : ∃ (p : Fin 128) (q : Fin 2048), z = ix2 p q := ⟨z 0, z 1, eq_ix2 z⟩)
    · exact (pay7_apply x3 x4 _ p q).trans (affine_at x0 x3 x4 _ q (slab_col _ _ (by rfl) p q))
    · exact (pay65_apply x3 x4 _ p q).trans (affine_at x0 x3 x4 _ q (slab_col _ _ (by rfl) p q))
    · exact (pay4_apply x3 x4 _ p q).trans (affine_at x0 x3 x4 _ q (slab_col _ _ (by rfl) p q))
    · exact (pay3_apply x3 x4 _ p q).trans (affine_at x0 x3 x4 _ q (slab_col _ _ (by rfl) p q))
  subst hN'
  clear hN
  -- the four output chunks: the product stored whole and loaded 128 rows at a time is the product at those rows
  intro pc hpc
  simp only [List.mem_cons, List.not_mem_nil, or_false] at hpc
  rcases hpc with rfl | rfl | rfl | rfl
  all_goals (intro z; obtain ⟨p, q, rfl⟩ : ∃ (p : Fin 128) (q : Fin 2048), z = ix2 p q := ⟨z 0, z 1, eq_ix2 z⟩)
  · refine (pay16_apply x3 x4 _ _ _ p q).trans ?_
    rw [View.readCov_eq_canon', View.canon_unit_zero hz]
    exact blend_at x0 x1 x2 x3 x4 _ q (slab_col _ _ (by rfl) p q)
  · refine (pay15_apply x3 x4 _ _ _ p q).trans ?_
    rw [View.readCov_eq_canon', View.canon_unit_zero hz]
    exact blend_at x0 x1 x2 x3 x4 _ q (slab_col _ _ (by rfl) p q)
  · refine (pay13_apply x3 x4 _ _ _ p q).trans ?_
    rw [View.readCov_eq_canon', View.canon_unit_zero hz]
    exact blend_at x0 x1 x2 x3 x4 _ q (slab_col _ _ (by rfl) p q)
  · refine (pay12_apply x3 x4 _ _ _ p q).trans ?_
    rw [View.readCov_eq_canon', View.canon_unit_zero hz]
    exact blend_at x0 x1 x2 x3 x4 _ q (slab_col _ _ (by rfl) p q)

end Cert.Highway.Block

end
-- ==== Proof.KernelArray.lean ====
/-
  From the blocks to the whole array: after the run the kernel's result array is the specification's `result` of the
  seven argument arrays.

  Grid point t works on rows 512·t … 512·t + 511: its two input blocks are those rows of the two inputs, its weight
  block is the whole weight matrix (converted to a narrower float format on the way in, which changes nothing over
  the extended reals), and its scale and offset blocks are the 1×2048 rows the program computes once before the launch
  from γ, β, μ, σ² — γ · rsqrt(σ² + ε) and β − μ · scale, reshaped from length 2048. What the point writes back is the
  specification's block of its input blocks, which is the block of `result` at those rows; the 64 blocks cover the array.
-/
import proofs.«163675_j77163382440891_2_alg».proof.Proof.Gen.KernelIdeal.Value
import proofs.«163675_j77163382440891_2_alg».proof.Proof.KernelBlock
import Idealize.ShloMosaic.Lib.StableHlo.Run
import Idealize.ShloMosaic.Lib.Pipeline.Value

set_option maxRecDepth 16384

noncomputable section

namespace Cert.Highway.Array

open Cert.KernelIdeal Cert.KernelIdeal.Gen Cert.KernelIdeal.Value Idealize.ShloMosaic Idealize.ShloMosaic.TcCoe
open Idealize.SL.Sem Idealize.ShloMosaic.ValueIdx Idealize.ShloMosaic.StableHlo Cert.Highway
open Idealize.ShloMosaic.Pipeline (Dat)

variable (m : (ℓ : Loc nD τ sig) → Buf (Elt Ideal) ℓ) (ρ : Dev nD → PrngReg)

/-- The specification's result of core `c`'s seven argument arrays as launched. -/
abbrev arrayOut (c : Dev nD) : S32768x2048.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Which rows and columns each window's block holds -/

/-- The printed index maps over the 64 grid points: the two inputs and the output move down with the point, the weight,
    the scale and the offset stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem emb0 (t : Fin cfg0.N) (p : Fin 512) (k : Fin 2048) (R : Fin 32768) (hR : R.val = t.val * 512 + p.val) :
    ((cfg0.win 0).blk t).view.emb (ix2 p k : S512x2048.Idx) = (ix2 R k : S32768x2048.Idx) := by
  obtain ⟨e0, e1, -⟩ := idx_facts t
  funext a; apply Fin.ext
  match a with
  | ⟨0, _⟩ => show win0_0.index t (0 : Fin 2) * 512 + 1 * p.val = R.val; omega
  | ⟨1, _⟩ => show win0_0.index t (1 : Fin 2) * 2048 + 1 * k.val = k.val; omega

theorem emb1 (t : Fin cfg0.N) (p : Fin 512) (k : Fin 2048) (R : Fin 32768) (hR : R.val = t.val * 512 + p.val) :
    ((cfg0.win 1).blk t).view.emb (ix2 p k : S512x2048.Idx) = (ix2 R k : S32768x2048.Idx) := by
  obtain ⟨-, -, e0, e1, -⟩ := idx_facts t
  funext a; apply Fin.ext
  match a with
  | ⟨0, _⟩ => show win0_1.index t (0 : Fin 2) * 512 + 1 * p.val = R.val; omega
  | ⟨1, _⟩ => show win0_1.index t (1 : Fin 2) * 2048 + 1 * k.val = k.val; omega

theorem emb2 (t : Fin cfg0.N) (k n : Fin 2048) :
    ((cfg0.win 2).blk t).view.emb (ix2 k n : S2048x2048.Idx) = (ix2 k n : S2048x2048.Idx) := by
  obtain ⟨-, -, -, -, e0, e1, -⟩ := idx_facts t
  funext a; apply Fin.ext
  match a with
  | ⟨0, _⟩ => show win0_2.index t (0 : Fin 2) * 2048 + 1 * k.val = k.val; omega
  | ⟨1, _⟩ => show win0_2.index t (1 : Fin 2) * 2048 + 1 * n.val = n.val; omega

theorem emb3 (t : Fin cfg0.N) (k : Fin 2048) :
    ((cfg0.win 3).blk t).view.emb (ix2 (0 : Fin 1) k : S1x2048.Idx) = (ix2 (0 : Fin 1) k : S1x2048.Idx) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 2048 + 1 * k.val = k.val; omega

theorem emb4 (t : Fin cfg0.N) (k : Fin 2048) :
    ((cfg0.win 4).blk t).view.emb (ix2 (0 : Fin 1) k : S1x2048.Idx) = (ix2 (0 : Fin 1) k : S1x2048.Idx) := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 2048 + 1 * k.val = k.val; omega

theorem emb5 (t : Fin cfg0.N) (p : Fin 512) (q : Fin 2048) (R : Fin 32768) (hR : R.val = t.val * 512 + p.val) :
    ((cfg0.win 5).blk t).view.emb (ix2 p q : S512x2048.Idx) = (ix2 R q : S32768x2048.Idx) := by
  obtain ⟨-, -, -, -, -, -, -, -, -, -, e0, e1⟩ := idx_facts t
  funext a; apply Fin.ext
  match a with
  | ⟨0, _⟩ => show win0_5.index t (0 : Fin 2) * 512 + 1 * p.val = R.val; omega
  | ⟨1, _⟩ => show win0_5.index t (1 : Fin 2) * 2048 + 1 * q.val = q.val; omega

/-! ## What the program computes before the launch -/

/-- The weight as the region finds it: the argument, its float format changed. -/
theorem V_weight (c : Dev nD) :
    (V m c main_v0 : S2048x2048.Idx → EReal)
      = truncf (F := Ideal) (s := S2048x2048) (φ := .f32) .bf16 (m ((c : Thread nD τ).loc main_arg2)) bitsLt_bf16_f32 := by
  dsimp only [V, hostOps0]; after_results

/-- The scale row as the region finds it: γ · rsqrt(σ² + ε), reshaped from length 2048 to 1×2048. -/
theorem V_scale (c : Dev nD) :
    (V m c main_v7 : S1x2048.Idx → EReal)
      = shapeCast S1x2048 (mulf (m ((c : Thread nD τ).loc main_arg3)) (Host.rsqrt (addf (m ((c : Thread nD τ).loc main_arg6))
          (broadcastInDim S2048 ![] bcast_S_S2048 (constant (F := Ideal) S_ .f32 0x3A83126F#32))))) shapeCasts_S2048_S1x2048 := by
  dsimp only [V, hostOps0]; after_results; rfl

/-- The offset row as the region finds it: β − μ · scale, reshaped likewise. -/
theorem V_offset (c : Dev nD) :
    (V m c main_v8 : S1x2048.Idx → EReal)
      = shapeCast S1x2048 (subf (m ((c : Thread nD τ).loc main_arg4)) (mulf (m ((c : Thread nD τ).loc main_arg5))
          (mulf (m ((c : Thread nD τ).loc main_arg3)) (Host.rsqrt (addf (m ((c : Thread nD τ).loc main_arg6))
            (broadcastInDim S2048 ![] bcast_S_S2048 (constant (F := Ideal) S_ .f32 0x3A83126F#32))))))) shapeCasts_S2048_S1x2048 := by
  dsimp only [V, hostOps0]; after_results; rfl

/-- A length-2048 vector reshaped to 1×2048, at (0, k): the vector at k. -/
theorem row_of_vector (v : S2048.Idx → EReal) (h : S2048.ShapeCasts S1x2048) (k : Fin 2048) :
    shapeCast S1x2048 v h (ix2 (0 : Fin 1) k) = v (ix1 k) := by
  refine (shapeCast_addUnit_apply ![2048] v h (ix2 (0 : Fin 1) k)).trans (congrArg v ?_)
  funext a; match a with | ⟨0, _⟩ => rfl

/-! ## Each input block at an entry -/

theorem in0_entry (c : Dev nD) (t : Fin cfg0.N) (p : Fin 512) (k : Fin 2048) (R : Fin 32768) (hR : R.val = t.val * 512 + p.val) :
    iblk m c 0 t (ix2 p k : S512x2048.Idx) = m ((c : Thread nD τ).loc main_arg0) (ix2 R k : S32768x2048.Idx) := by
  show V m c main_arg0 (((cfg0.win 0).blk t).view.emb (ix2 p k : S512x2048.Idx)) = _
  rw [emb0 t p k R hR, V_main_arg0]

theorem in1_entry (c : Dev nD) (t : Fin cfg0.N) (p : Fin 512) (k : Fin 2048) (R : Fin 32768) (hR : R.val = t.val * 512 + p.val) :
    iblk m c 1 t (ix2 p k : S512x2048.Idx) = m ((c : Thread nD τ).loc main_arg1) (ix2 R k : S32768x2048.Idx) := by
  show V m c main_arg1 (((cfg0.win 1).blk t).view.emb (ix2 p k : S512x2048.Idx)) = _
  rw [emb1 t p k R hR, V_main_arg1]

theorem weight_entry (c : Dev nD) (t : Fin cfg0.N) (k n : Fin 2048) :
    iblk m c 2 t (ix2 k n : S2048x2048.Idx) = m ((c : Thread nD τ).loc main_arg2) (ix2 k n : S2048x2048.Idx) := by
  show V m c main_v0 (((cfg0.win 2).blk t).view.emb (ix2 k n : S2048x2048.Idx)) = _
  rw [emb2 t k n, V_weight]
  rfl

theorem scale_entry (c : Dev nD) (t : Fin cfg0.N) (k : Fin 2048) :
    iblk m c 3 t (ix2 (0 : Fin 1) k : S1x2048.Idx)
      = scale (m ((c : Thread nD τ).loc main_arg3)) (m ((c : Thread nD τ).loc main_arg6)) k := by
  show V m c main_v7 (((cfg0.win 3).blk t).view.emb (ix2 (0 : Fin 1) k : S1x2048.Idx)) = _
  rw [emb3 t k, V_scale, row_of_vector]
  rfl

theorem offset_entry (c : Dev nD) (t : Fin cfg0.N) (k : Fin 2048) :
    iblk m c 4 t (ix2 (0 : Fin 1) k : S1x2048.Idx)
      = offset (m ((c : Thread nD τ).loc main_arg3)) (m ((c : Thread nD τ).loc main_arg4))
          (m ((c : Thread nD τ).loc main_arg5)) (m ((c : Thread nD τ).loc main_arg6)) k := by
  show V m c main_v8 (((cfg0.win 4).blk t).view.emb (ix2 (0 : Fin 1) k : S1x2048.Idx)) = _
  rw [emb4 t k, V_offset, row_of_vector]
  rfl

/-! ## What a point writes back, the cover, the array -/

/-- What point `t` writes back is block `t` of the specification's result. -/
theorem flushed_eq (c : Dev nD) (t : Fin cfg0.N) :
    (dats m 0 c).flushed 5 t = ((cfg0.win 5).blk t).view.read (Elt Ideal) (arrayOut m c) := by
  have hN : cfg0.N = 64 := N_0
  have ht : t.val < 64 := hN ▸ t.isLt
  rw [flushed5]
  unfold outsAt0
  refine (congrArg ((cfg0.win 5).cut (grid0.coords t)) (Block.out_block c (grid0.coords t) (ms0_0 t) (hs0_0 t) (ms0_1 t) (hs0_1 t)
    (ms0_2 t) (hs0_2 t) (ms0_3 t) (hs0_3 t) (ms0_4 t) (hs0_4 t) (ms0_5 t) (hs0_5 t) scM0_0 (Memref.isWhole_whole _) scM0_1
    (Memref.isWhole_whole _) (iblk m c 0 t) (iblk m c 1 t) (iblk m c 2 t) (iblk m c 3 t) (iblk m c 4 t))).trans ?_
  funext j
  obtain ⟨p, q, rfl⟩ : ∃ (p : Fin 512) (q : Fin 2048), j = (ix2 p q : S512x2048.Idx) := ⟨j 0, j 1, eq_ix2 j⟩
  show blockOut (iblk m c 0 t) (iblk m c 1 t) (iblk m c 2 t) (iblk m c 3 t) (iblk m c 4 t) (ix2 p q)
    = arrayOut m c (((cfg0.win 5).blk t).view.emb (ix2 p q : S512x2048.Idx))
  rw [emb5 t p q ⟨t.val * 512 + p.val, by have := p.isLt; omega⟩ rfl]
  exact rowOut_congr (fun k => in0_entry m c t p k _ rfl) (fun k => in1_entry m c t p k _ rfl)
    (fun k => scale_entry m c t k) (fun k => offset_entry m c t k) (fun k n => weight_entry m c t k n) q

/-- An index of the array is in point `t`'s block iff each coordinate is in the block's range on its axis. -/
theorem mem_blk (t : Fin cfg0.N) (i : S32768x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v9).slice (win0_5.rect t)).set ↔ _
  rw [View.set_slice_whole, Rect.mem_set_unit]
  exact Iff.rfl

/-- Every row of the array is in the block of the point its number divided by 512 names. -/
theorem cover (i : S32768x2048.Idx) :
    ∃ t : Fin cfg0.N, (cfg0.win 5).flush t = true ∧ i ∈ ((cfg0.win 5).blk t).view.set := by
  have hN : cfg0.N = 64 := N_0
  have hi0 : (i 0).val < 32768 := (i 0).isLt
  have hi1 : (i 1).val < 2048 := (i 1).isLt
  let t : Fin cfg0.N := ⟨(i 0).val / 512, by rw [hN]; omega⟩
  obtain ⟨-, -, -, -, -, -, -, -, -, -, e0, e1⟩ := idx_facts t
  have e0' : win0_5.index t (0 : Fin 2) = (i 0).val / 512 := e0
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 2048 ≤ (i 1).val ∧ (i 1).val < win0_5.index t (1 : Fin 2) * 2048 + 2048
    omega

/-- After the run the result array is the specification's result of the arguments. -/
theorem final (c : Dev nD) : (dats m 0 c).arrAt 5 cfg0.N = arrayOut m c :=
  (dats m 0 c).arrAt_eq_of_cover 5 (arrayOut m c) (fun t _ => flushed_eq m c t) cover

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v9) = arrayOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Highway.Array

end
-- ==== Proof.ReferenceValue.lean ====
/-
  The reference program's result, entry by entry, is the specification's `result` of the argument arrays.

  The reference normalizes both inputs with the scale γ · rsqrt(σ² + ε) and the offset β − μ · scale — it computes each
  of the two twice, once per input, from the same arguments —, broadcasts them from length D over the rows, multiplies
  the first normalized input with the weight (a contraction over the column index of row r), and blends. Read at (r, n)
  every stage is the same expression as the specification's row function at row r and column n.
-/
import proofs.«163675_j77163382440891_2_alg».proof.Proof.Gen.ReferenceIdeal.Read
import proofs.«163675_j77163382440891_2_alg».proof.Proof.HighwaySpec

noncomputable section

namespace Cert.Highway.Ref

open Cert.ReferenceIdeal Cert.ReferenceIdeal.Read Idealize.ShloMosaic Idealize.ShloMosaic.ValueIdx Cert.Highway

variable (x0 x1 : (⟨S32768x2048, .f32⟩ : BufTy).Contents (Elt Ideal)) (x2 : (⟨S2048x2048, .f32⟩ : BufTy).Contents (Elt Ideal))
  (x3 x4 x5 x6 : (⟨S2048, .f32⟩ : BufTy).Contents (Elt Ideal))

/-! ## A length-D vector broadcast over the rows is read at its column -/

theorem col5 (r : Fin 32768) (k : Fin 2048) : idx_main_v4 (idx_main_v5 (ix2 r k)) = ix1 k :=
  funext fun a => Fin.ext (by match a with | ⟨0, _⟩ => rfl)
theorem col10 (r : Fin 32768) (k : Fin 2048) : idx_main_v9 (idx_main_v10 (ix2 r k)) = ix1 k :=
  funext fun a => Fin.ext (by match a with | ⟨0, _⟩ => rfl)
theorem col17 (r : Fin 32768) (k : Fin 2048) : idx_main_v16 (idx_main_v17 (ix2 r k)) = ix1 k :=
  funext fun a => Fin.ext (by match a with | ⟨0, _⟩ => rfl)
theorem col22 (r : Fin 32768) (k : Fin 2048) : idx_main_v21 (idx_main_v22 (ix2 r k)) = ix1 k :=
  funext fun a => Fin.ext (by match a with | ⟨0, _⟩ => rfl)

/-! ## The scale and the offset, each computed twice -/

theorem scale_a (k : Fin 2048) : val_main_v3 (F := Ideal) x3 x6 (ix1 k) = scale x3 x6 k := by
  rw [val_main_v3_apply, val_main_v2_apply, val_main_v1_apply, val_main_v0_apply, val_main_cst_apply]; rfl

theorem scale_b (k : Fin 2048) : val_main_v15 (F := Ideal) x3 x6 (ix1 k) = scale x3 x6 k := by
  rw [val_main_v15_apply, val_main_v14_apply, val_main_v13_apply, val_main_v12_apply, val_main_cst_0_apply]; rfl

theorem offset_a (k : Fin 2048) : val_main_v8 (F := Ideal) x3 x4 x5 x6 (ix1 k) = offset x3 x4 x5 x6 k := by
  rw [val_main_v8_apply, val_main_v7_apply, scale_a]; rfl

theorem offset_b (k : Fin 2048) : val_main_v20 (F := Ideal) x3 x4 x5 x6 (ix1 k) = offset x3 x4 x5 x6 k := by
  rw [val_main_v20_apply, val_main_v19_apply, scale_b]; rfl

/-! ## The two normalized inputs -/

theorem normalized_a (r : Fin 32768) (k : Fin 2048) :
    val_main_v11 (F := Ideal) x0 x3 x4 x5 x6 (ix2 r k) = x0 (ix2 r k) * scale x3 x6 k + offset x3 x4 x5 x6 k := by
  rw [val_main_v11_apply, val_main_v6_apply, val_main_v5_apply, val_main_v4_apply, col5, scale_a,
    val_main_v10_apply, val_main_v9_apply, col10, offset_a]; rfl

theorem normalized_b (r : Fin 32768) (k : Fin 2048) :
    val_main_v23 (F := Ideal) x1 x3 x4 x5 x6 (ix2 r k) = x1 (ix2 r k) * scale x3 x6 k + offset x3 x4 x5 x6 k := by
  rw [val_main_v23_apply, val_main_v18_apply, val_main_v17_apply, val_main_v16_apply, col17, scale_b,
    val_main_v22_apply, val_main_v21_apply, col22, offset_b]; rfl

/-! ## The gate's pre-activation: row r of the first normalized input contracted with column n of the weight -/

theorem lidx_eq (r : Fin 32768) (n k : Fin 2048) : lidx_main_v24 (ix2 r n) k = ix2 r k :=
  funext fun a => Fin.ext (by match a with | ⟨0, _⟩ => rfl | ⟨1, _⟩ => rfl)
theorem ridx_eq (r : Fin 32768) (n k : Fin 2048) : ridx_main_v24 (ix2 r n) k = ix2 k n :=
  funext fun a => Fin.ext (by match a with | ⟨0, _⟩ => rfl | ⟨1, _⟩ => rfl)

theorem product (r : Fin 32768) (n : Fin 2048) :
    val_main_v24 (F := Ideal) x0 x2 x3 x4 x5 x6 (ix2 r n)
      = ∑ k : Fin 2048, (x0 (ix2 r k) * scale x3 x6 k + offset x3 x4 x5 x6 k) * x2 (ix2 k n) := by
  rw [val_main_v24_apply]
  refine Finset.sum_congr rfl fun k _ => ?_
  rw [lidx_eq, ridx_eq, normalized_a]

/-! ## The result -/

/-- The reference's last stage is the specification's result of the argument arrays. -/
theorem value_eq : val_main_v32 (F := Ideal) x0 x1 x2 x3 x4 x5 x6 = result x0 x1 x2 x3 x4 x5 x6 := by
  funext i
  obtain ⟨r, n, rfl⟩ : ∃ (r : Fin 32768) (n : Fin 2048), i = ix2 r n := ⟨i 0, i 1, eq_ix2 i⟩
  rw [val_main_v32_apply, val_main_v31_apply, val_main_v29_apply, val_main_v30_apply, val_main_v28_apply,
    val_main_v27_apply, val_main_cst_1_apply, val_main_v26_apply, val_main_v25_apply, val_main_call0_v0_apply,
    val_main_call0_cst_apply, product, normalized_a, normalized_b]
  rfl

end Cert.Highway.Ref

end
-- ==== Proof.lean ====
/-
  A batch-normalized gated blend: the kernel and its reference compute the same array over the extended reals.

  Both programs normalize two N×D inputs column by column with one scale γ · rsqrt(σ² + ε) and one offset β − μ · scale,
  read a gate g = max(tanh(h1 W), 0) off the first normalized input through a D×D weight, and return
  tanh(h2 · (1 − g) + h1 · g). The kernel does it 512 rows at a time, in chunks of 128 rows, with the scale and offset
  computed once before the launch and the weight and the normalized first input passed through a narrower float format
  on their way into the product; the reference does it on whole arrays. Over the extended reals a change of float format
  is the identity and a product accumulated into zero is the plain sum over the contracted index, so both results are
  the same function of the seven arguments, entry by entry (`Cert.Highway.result`): the kernel's by reading each grid
  point's four stores as one block function and the 64 blocks as a cover of the array, the reference's by reading its
  operations one at a time. No finiteness is used: the two sides are the same expression, not two arrangements of it.
  The claim's conjunct about the idealization is stated as `True` (its ledger of rewrites is empty), so it holds trivially.
-/
import proofs.«163675_j77163382440891_2_alg».proof.Defs
import proofs.«163675_j77163382440891_2_alg».proof.Proof.Gen.Kernel
import proofs.«163675_j77163382440891_2_alg».proof.Proof.Gen.Kernel.Skeleton
import proofs.«163675_j77163382440891_2_alg».proof.Proof.Gen.Kernel.Launch
import proofs.«163675_j77163382440891_2_alg».proof.Proof.Gen.Kernel.Points
import proofs.«163675_j77163382440891_2_alg».proof.Proof.Gen.Kernel.Frame
import proofs.«163675_j77163382440891_2_alg».proof.Proof.Gen.KernelIdeal
import proofs.«163675_j77163382440891_2_alg».proof.Proof.Gen.KernelIdeal.Skeleton
import proofs.«163675_j77163382440891_2_alg».proof.Proof.Gen.KernelIdeal.Launch
import proofs.«163675_j77163382440891_2_alg».proof.Proof.Gen.KernelIdeal.Points
import proofs.«163675_j77163382440891_2_alg».proof.Proof.Gen.KernelIdeal.Frame
import proofs.«163675_j77163382440891_2_alg».proof.Proof.Gen.ReferenceIdeal
import proofs.«163675_j77163382440891_2_alg».proof.Proof.Gen.Pre_finite_inputs
import proofs.«163675_j77163382440891_2_alg».proof.Proof.Gen.KernelIdeal.Value
import proofs.«163675_j77163382440891_2_alg».proof.Proof.Gen.ReferenceIdeal.Run
import proofs.«163675_j77163382440891_2_alg».proof.Proof.Gen.ReferenceIdeal.Read
import proofs.«163675_j77163382440891_2_alg».proof.Proof.KernelArray
import proofs.«163675_j77163382440891_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel :=
  fun m ρ _ => Cert.Kernel.Gen.frame m ρ

/-- So does its reading over the extended reals. -/
theorem frame_kernelIdeal : Cert.frame_KernelIdeal :=
  fun m ρ _ => Cert.KernelIdeal.Gen.frame m ρ

/-- The reference runs and leaves its arguments alone: its run with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the seven arguments both programs end with the specification's result of them. -/
theorem algebraic : Cert.algebraic_KernelIdeal_ReferenceIdeal := by
  intro m ρ m' ρ' _ hagree
  refine ⟨fun c => Cert.Highway.Array.arrayOut m c, Cert.Highway.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v32_eq, Cert.Highway.Ref.value_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
